-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x16x256 : Shape := ⟨3, ![65536, 16, 256]⟩
abbrev S256x256 : Shape := ⟨2, ![256, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x16x256 : S_.BroadcastsInDim S65536x16x256 (![] : Fin 0 → Fin S65536x16x256.rank)
  reducesTo_S65536x16x256_S_d0_1_2 : S65536x16x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S65536x256 .f32) (main_arg1 : FVec F S65536x16x256 .f32) (main_arg2 : FVec F S256x256 .f32) (main_arg3 : FVec F S256x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x16x256 .f32 := Host.absf main_arg1
  let main_cst_0 : FVec F S_ .f32 := constant S_ .f32 0x7F800000#32
  let main_v5 : FVec F S65536x16x256 .f32 := broadcastInDim S65536x16x256 ![] bcast_S_S65536x16x256 main_cst_0
  let main_v6 : IVec S65536x16x256 1 := cmpf .olt main_v4 main_v5
  let main_c_1 : IVec S_ 1 := constantI S_ 1 1#1
  let main_v7 : IVec S_ 1 := (fun x v => Host.reduce IntOp.andi x v reducesTo_S65536x16x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S65536x256 : Shape := ⟨2, ![65536, 256]⟩
abbrev S65536x16x256 : Shape := ⟨3, ![65536, 16, 256]⟩
abbrev S256x256 : Shape := ⟨2, ![256, 256]⟩
abbrev S65536x512 : Shape := ⟨2, ![65536, 512]⟩
abbrev S512x256 : Shape := ⟨2, ![512, 256]⟩
abbrev S512x16x256 : Shape := ⟨3, ![512, 16, 256]⟩
abbrev S512x512 : Shape := ⟨2, ![512, 512]⟩
abbrev S512x1x256 : Shape := ⟨3, ![512, 1, 256]⟩

abbrev nBuf : Space → Nat
  | .hbm => 7
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S65536x16x256, .f32⟩
  | .hbm, ⟨2, _⟩ => ⟨S256x256, .f32⟩
  | .hbm, ⟨3, _⟩ => ⟨S256x256, .f32⟩
  | .hbm, ⟨4, _⟩ => ⟨S256x256, .bf16⟩
  | .hbm, ⟨5, _⟩ => ⟨S256x256, .bf16⟩
  | .hbm, ⟨6, _⟩ => ⟨S65536x512, .f32⟩
  | .local _ .vmem, ⟨0, _⟩ => ⟨S512x256, .f32⟩
  | .local _ .vmem, ⟨1, _⟩ => ⟨S512x256, .f32⟩
  | .local _ .vmem, ⟨2, _⟩ => ⟨S512x16x256, .f32⟩
  | .local _ .vmem, ⟨3, _⟩ => ⟨S512x16x256, .f32⟩
  | .local _ .vmem, ⟨4, _⟩ => ⟨S256x256, .bf16⟩
  | .local _ .vmem, ⟨5, _⟩ => ⟨S256x256, .bf16⟩
  | .local _ .vmem, ⟨6, _⟩ => ⟨S512x512, .f32⟩
  | .local _ .vmem, ⟨7, _⟩ => ⟨S512x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S512x16x256_S512x1x256_0_0_0 : ∀ a, (![0, 0, 0] : Fin 3 → Nat) a + S512x1x256.size a ≤ S512x16x256.size a
  h_S512x1x256 : 0 < S512x1x256.numel
  shapeCasts_S512x1x256_S512x256 : S512x1x256.ShapeCasts S512x256
  inb_S512x16x256_S512x1x256_0_1_0 : ∀ a, (![0, 1, 0] : Fin 3 → Nat) a + S512x1x256.size a ≤ S512x16x256.size a
  inb_S512x16x256_S512x1x256_0_2_0 : ∀ a, (![0, 2, 0] : Fin 3 → Nat) a + S512x1x256.size a ≤ S512x16x256.size a
  inb_S512x16x256_S512x1x256_0_3_0 : ∀ a, (![0, 3, 0] : Fin 3 → Nat) a + S512x1x256.size a ≤ S512x16x256.size a
  inb_S512x16x256_S512x1x256_0_4_0 : ∀ a, (![0, 4, 0] : Fin 3 → Nat) a + S512x1x256.size a ≤ S512x16x256.size a
  inb_S512x16x256_S512x1x256_0_5_0 : ∀ a, (![0, 5, 0] : Fin 3 → Nat) a + S512x1x256.size a ≤ S512x16x256.size a
  inb_S512x16x256_S512x1x256_0_6_0 : ∀ a, (![0, 6, 0] : Fin 3 → Nat) a + S512x1x256.size a ≤ S512x16x256.size a
  inb_S512x16x256_S512x1x256_0_7_0 : ∀ a, (![0, 7, 0] : Fin 3 → Nat) a + S512x1x256.size a ≤ S512x16x256.size a
  inb_S512x16x256_S512x1x256_0_8_0 : ∀ a, (![0, 8, 0] : Fin 3 → Nat) a + S512x1x256.size a ≤ S512x16x256.size a
  inb_S512x16x256_S512x1x256_0_9_0 : ∀ a, (![0, 9, 0] : Fin 3 → Nat) a + S512x1x256.size a ≤ S512x16x256.size a
  inb_S512x16x256_S512x1x256_0_10_0 : ∀ a, (![0, 10, 0] : Fin 3 → Nat) a + S512x1x256.size a ≤ S512x16x256.size a
  inb_S512x16x256_S512x1x256_0_11_0 : ∀ a, (![0, 11, 0] : Fin 3 → Nat) a + S512x1x256.size a ≤ S512x16x256.size a
  inb_S512x16x256_S512x1x256_0_12_0 : ∀ a, (![0, 12, 0] : Fin 3 → Nat) a + S512x1x256.size a ≤ S512x16x256.size a
  inb_S512x16x256_S512x1x256_0_13_0 : ∀ a, (![0, 13, 0] : Fin 3 → Nat) a + S512x1x256.size a ≤ S512x16x256.size a
  inb_S512x16x256_S512x1x256_0_14_0 : ∀ a, (![0, 14, 0] : Fin 3 → Nat) a + S512x1x256.size a ≤ S512x16x256.size a
  inb_S512x16x256_S512x1x256_0_15_0 : ∀ a, (![0, 15, 0] : Fin 3 → Nat) a + S512x1x256.size a ≤ S512x16x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x512_S512x256_0_0 : ∀ a, (![0, 0] : Fin 2 → Nat) a + S512x256.size a ≤ S512x512.size a
  inb_S512x512_S512x256_0_256 : ∀ a, (![0, 256] : Fin 2 → Nat) a + S512x256.size a ≤ S512x512.size a
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S65536x256.size a
  hwx0_0 : ∀ i : grid0.Coords, EltTy.bits .f32 = 32 ∨ (Rect.block (s := S65536x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16x256.size a ≤ S65536x16x256.size a
  hwx0_1 : ∀ i : grid0.Coords, EltTy.bits .f32 = 32 ∨ (Rect.block (s := S65536x16x256) S512x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S65536x512.size a
  hwx0_4 : ∀ i : grid0.Coords, EltTy.bits .f32 = 32 ∨ (Rect.block (s := S65536x512) S512x512.size (cc0_transform_4 i) (hinb0_4 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x16x256 : Shape := ⟨3, ![65536, 16, 256]⟩
abbrev S256x256 : Shape := ⟨2, ![256, 256]⟩
abbrev S_ : Shape := ⟨0, ![]⟩
abbrev S65536x512 : Shape := ⟨2, ![65536, 512]⟩

abbrev nBuf : Space → Nat
  | .hbm => 15
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x16x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S65536x256, .f32⟩
  | .hbm, ⟨6, _⟩ => ⟨S_, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S65536x256, .f32⟩
  | .hbm, ⟨11, _⟩ => ⟨S65536x512, .f32⟩
  | .hbm, ⟨12, _⟩ => ⟨S_, .f32⟩
  | .hbm, ⟨13, _⟩ => ⟨S65536x512, .f32⟩
  | .hbm, ⟨14, _⟩ => ⟨S65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  reducesTo_S65536x16x256_S65536x256_d1 : S65536x16x256.ReducesTo [1] S65536x256
  h_S_ : 0 < S_.numel
  bcast_S_S65536x256 : S_.BroadcastsInDim S65536x256 (![] : Fin 0 → Fin S65536x256.rank)
  concatenates_S65536x256_S65536x256_S65536x512_d1 : Shape.Concatenates [S65536x256, S65536x256] S65536x512 1
  bcast_S_S65536x512 : S_.BroadcastsInDim S65536x512 (![] : Fin 0 → Fin S65536x512.rank)
  dot_S65536x256_S256x256_S65536x256_1_0_0_1_n_n_wf : DotDims.WF S65536x256 S256x256 S65536x256 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.Sage.lean ====
import Idealize.ShloMosaic.Lib.ValueIdx
import Idealize.ShloMosaic.Lib.Pipeline.Value
import Idealize.ShloMosaic.PureOps.Ideal.Laws

/-!
# A GraphSAGE layer over rows, on the extended reals

For a node table of M rows the layer's output at row p and column c < 512 is

* for c < 256: max (∑ k, x (p, k) · W (k, c)) 0, the node's own features through the self weights;
* for c ≥ 256: max (∑ k, mean (p, k) · A (k, c - 256)) 0, the mean of the node's 16 sampled neighbours
  through the aggregate weights, where mean (p, k) = (∑ j, n (p, j, k)) · 2⁻⁴.

The scale is kept as the f32 word of 0.0625 and the floor as the f32 word of 0.0; the only arithmetic fact about
words used anywhere is that dividing by the word of 16.0 is multiplying by the word of 0.0625, on every extended
real (div_sixteen): both words are exact powers of two, so no finiteness is needed.

Every row of the output depends on the same row of x and n only (layer_congr), which is what lets a block of
512 rows be computed from the blocks of the inputs.
-/

noncomputable section

namespace GraphSage

open Idealize.ShloMosaic Idealize.ShloMosaic.ValueIdx

/-! ## The two words -/

/-- The f32 word of 16.0 denotes the real 16. -/
theorem word_sixteen : Ideal.ofBits .f32 0x41800000#32 = ((16 : ℝ) : EReal) := by
  simp [Ideal.ofBits, Ideal.ieee, -EReal.coe_mul]; norm_num

/-- The f32 word of 0.0625 denotes the real 1/16. -/
theorem word_sixteenth : Ideal.ofBits .f32 0x3D800000#32 = ((1 / 16 : ℝ) : EReal) := by
  simp [Ideal.ofBits, Ideal.ieee, -EReal.coe_mul]; norm_num

/-- Dividing by 16 is multiplying by 1/16, for every extended real: the divisor is a nonzero real. -/
theorem div_sixteen (x : EReal) :
    Ideal.div x (Ideal.ofBits .f32 0x41800000#32) = x * Ideal.ofBits .f32 0x3D800000#32 := by
  rw [word_sixteen, word_sixteenth, Ideal.div_coe (by norm_num : (16 : ℝ) ≠ 0)]

/-! ## Sixteen terms, added left to right -/

/-- A sum over sixteen indices written out, associated to the left. -/
theorem sum_sixteen {α : Type} [AddCommMonoid α] (f : Fin 16 → α) :
    ∑ j, f j = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-! ## The layer -/

variable {M : Nat}

/-- The mean over the 16 sampled neighbours of node p, feature k. -/
def neiMean (n : (⟨3, ![M, 16, 256]⟩ : Shape).Idx → EReal) (p : Fin M) (k : Fin 256) : EReal :=
  (∑ j : Fin 16, n (ix3 p j k)) * Ideal.ofBits .f32 0x3D800000#32

/-- The layer's output at row p, column c: the self half left of column 256, the neighbour half from it on. -/
def layer (x : (⟨2, ![M, 256]⟩ : Shape).Idx → EReal) (n : (⟨3, ![M, 16, 256]⟩ : Shape).Idx → EReal)
    (W A : (⟨2, ![256, 256]⟩ : Shape).Idx → EReal) (p : Fin M) (c : Fin 512) : EReal :=
  if h : c.val < 256 then
    max (∑ k : Fin 256, x (ix2 p k) * W (ix2 k ⟨c.val, h⟩)) (Ideal.ofBits .f32 0x00000000#32)
  else
    max (∑ k : Fin 256, neiMean n p k * A (ix2 k ⟨c.val - 256, by have := c.isLt; omega⟩))
      (Ideal.ofBits .f32 0x00000000#32)

/-- The layer as an array of M rows and 512 columns. -/
def layerArr (x : (⟨2, ![M, 256]⟩ : Shape).Idx → EReal) (n : (⟨3, ![M, 16, 256]⟩ : Shape).Idx → EReal)
    (W A : (⟨2, ![256, 256]⟩ : Shape).Idx → EReal) : (⟨2, ![M, 512]⟩ : Shape).Idx → EReal :=
  fun i => layer x n W A (i 0) (i 1)

theorem layerArr_apply (x : (⟨2, ![M, 256]⟩ : Shape).Idx → EReal) (n : (⟨3, ![M, 16, 256]⟩ : Shape).Idx → EReal)
    (W A : (⟨2, ![256, 256]⟩ : Shape).Idx → EReal) (p : Fin M) (c : Fin 512) :
    layerArr x n W A (ix2 p c) = layer x n W A p c := rfl

/-- A row of the output is a function of the same row of the node features and of the neighbour features, and of
    the two weight matrices: rows of two tables that agree give equal outputs. -/
theorem layer_congr {M' : Nat}
    (x : (⟨2, ![M, 256]⟩ : Shape).Idx → EReal) (n : (⟨3, ![M, 16, 256]⟩ : Shape).Idx → EReal)
    (x' : (⟨2, ![M', 256]⟩ : Shape).Idx → EReal) (n' : (⟨3, ![M', 16, 256]⟩ : Shape).Idx → EReal)
    (W A W' A' : (⟨2, ![256, 256]⟩ : Shape).Idx → EReal) (p : Fin M) (p' : Fin M') (c c' : Fin 512)
    (hx : ∀ k : Fin 256, x (ix2 p k) = x' (ix2 p' k))
    (hn : ∀ (j : Fin 16) (k : Fin 256), n (ix3 p j k) = n' (ix3 p' j k))
    (hW : W = W') (hA : A = A') (hc : c = c') :
    layer x n W A p c = layer x' n' W' A' p' c' := by
  subst hW hA hc
  unfold layer neiMean
  simp only [hx, hn]

end GraphSage

end
-- ==== Proof.SageRef.lean ====
import proofs.«130268_j35914516529155_2_alg».proof.Proof.Gen.ReferenceIdeal.Read
import proofs.«130268_j35914516529155_2_alg».proof.Proof.Sage

/-!
# The reference computes the layer

The reference adds a node's 16 neighbour rows (from the word of 0.0), divides by the word of 16.0, multiplies by the
aggregate weights, multiplies the node's own row by the self weights, joins the two products side by side (self on the
left, columns 0 to 255; neighbours on the right, columns 256 to 511) and floors at the word of 0.0. Read at row p and
column c this is the layer of Sage.lean: the leading 0.0 of the sum is the additive unit, the quotient by 16.0 is the
product with 0.0625, and a column left of 256 falls in the first joined piece, any other in the second at c - 256.
-/

noncomputable section

namespace GraphSage.Ref

open Cert.ReferenceIdeal Cert.ReferenceIdeal.Read Idealize.ShloMosaic Idealize.ShloMosaic.ValueIdx

/-- The self product at (p, q): the node's row against column q of the self weights. -/
theorem self_product (x0 : (⟨2, ![65536, 256]⟩ : Shape).Idx → EReal) (x2 : (⟨2, ![256, 256]⟩ : Shape).Idx → EReal)
    (p : Fin 65536) (q : Fin 256) :
    val_main_v4 (F := Ideal) x0 x2 (ix2 p q) = ∑ k : Fin 256, x0 (ix2 p k) * x2 (ix2 k q) := by
  rw [val_main_v4_apply]
  refine Finset.sum_congr rfl fun k _ => ?_
  have el : lidx_main_v4 (ix2 p q) k = ix2 p k :=
    funext fun a => Fin.ext (by match a with | ⟨0, _⟩ => rfl | ⟨1, _⟩ => rfl)
  have er : ridx_main_v4 (ix2 p q) k = ix2 k q :=
    funext fun a => Fin.ext (by match a with | ⟨0, _⟩ => rfl | ⟨1, _⟩ => rfl)
  rw [el, er]

/-- The sum of the 16 neighbour rows divided by 16.0 is the neighbour mean. -/
theorem mean_stage (x1 : (⟨3, ![65536, 16, 256]⟩ : Shape).Idx → EReal) (p : Fin 65536) (k : Fin 256) :
    val_main_v2 (F := Ideal) x1 (ix2 p k) = neiMean x1 p k := by
  rw [val_main_v2_apply, val_main_v0_apply, val_main_v1_apply, val_main_cst_0_apply, val_main_cst_apply]
  simp only [Ideal.hostDivf_def, Ideal.ofBits_def]
  rw [Ideal.ofBits_zero_f32, zero_add, div_sixteen]
  unfold neiMean
  congr 1
  refine Finset.sum_congr rfl fun j _ => ?_
  exact congrArg x1 (funext fun a => Fin.ext (by match a with | ⟨0, _⟩ => rfl | ⟨1, _⟩ => rfl | ⟨2, _⟩ => rfl))

/-- The neighbour product at (p, q): the node's neighbour mean against column q of the aggregate weights. -/
theorem nei_product (x1 : (⟨3, ![65536, 16, 256]⟩ : Shape).Idx → EReal) (x3 : (⟨2, ![256, 256]⟩ : Shape).Idx → EReal)
    (p : Fin 65536) (q : Fin 256) :
    val_main_v3 (F := Ideal) x1 x3 (ix2 p q) = ∑ k : Fin 256, neiMean x1 p k * x3 (ix2 k q) := by
  rw [val_main_v3_apply]
  refine Finset.sum_congr rfl fun k _ => ?_
  have el : lidx_main_v3 (ix2 p q) k = ix2 p k :=
    funext fun a => Fin.ext (by match a with | ⟨0, _⟩ => rfl | ⟨1, _⟩ => rfl)
  have er : ridx_main_v3 (ix2 p q) k = ix2 k q :=
    funext fun a => Fin.ext (by match a with | ⟨0, _⟩ => rfl | ⟨1, _⟩ => rfl)
  rw [el, er, mean_stage]

/-- The reference's result is the layer of its four arguments. -/
theorem reference_eq (x0 : (⟨2, ![65536, 256]⟩ : Shape).Idx → EReal) (x1 : (⟨3, ![65536, 16, 256]⟩ : Shape).Idx → EReal)
    (x2 x3 : (⟨2, ![256, 256]⟩ : Shape).Idx → EReal) :
    val_main_v6 (F := Ideal) x0 x1 x2 x3 = layerArr (M := 65536) x0 x1 x2 x3 := by
  funext i
  obtain ⟨p, c, rfl⟩ : ∃ (p : Fin 65536) (c : Fin 512), i = ix2 p c := ⟨i 0, i 1, eq_ix2 i⟩
  rw [val_main_v6_apply, val_main_call0_v0_apply, val_main_call0_cst_apply, layerArr_apply]
  simp only [Ideal.maximumf_def, Ideal.ofBits_def]
  unfold layer val_main_v5
  by_cases h : c.val < 256
  · rw [dif_pos h]
    refine congrArg (fun v => max v _) ?_
    exact (concatenate_pair_apply_left (t := ⟨2, ![65536, 512]⟩) (s₁ := ⟨2, ![65536, 256]⟩) (s₂ := ⟨2, ![65536, 256]⟩)
      (1 : Fin 2) _ _ _ (ix2 p c) rfl (ix2 p (⟨c.val, h⟩ : Fin 256))
      (fun b => by match b with | ⟨0, _⟩ => rfl | ⟨1, _⟩ => rfl)).trans (self_product x0 x2 p ⟨c.val, h⟩)
  · have hc : c.val < 512 := c.isLt
    rw [dif_neg h]
    refine congrArg (fun v => max v _) ?_
    exact (concatenate_pair_apply_right (t := ⟨2, ![65536, 512]⟩) (s₁ := ⟨2, ![65536, 256]⟩) (s₂ := ⟨2, ![65536, 256]⟩)
      (1 : Fin 2) _ _ _ (ix2 p c) rfl rfl (ix2 p (⟨c.val - 256, by omega⟩ : Fin 256))
      (fun b hb => by
        match b, hb with
        | ⟨0, _⟩, _ => rfl
        | ⟨1, _⟩, hb => exact absurd rfl hb)
      (by show c.val - 256 + 256 = c.val; omega)).trans (nei_product x1 x3 p ⟨c.val - 256, by omega⟩)

end GraphSage.Ref

end
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.LibMidUnit.lean ====
import Idealize.ShloMosaic.Lib.ValueIdx
import Idealize.ShloMosaic.Lib.Pipeline.Value

/-!
A unit axis in the MIDDLE of a rank-three shape, dropped or added by a shape cast, read at an index written by
coordinates: an array of extents a, 1, b re-laid as a by b reads at (i, j) the operand at (i, 0, j), and the other way
round. (The leading-unit forms are in the library; a kernel that loads one slice of extent a × 1 × b out of a block of
extent a × n × b and re-lays it as a × b needs the middle form.) Both are the library's shapeCast_apply with the two
row-major positions computed: (i · 1 + 0) · b + j = i · b + j.
-/

namespace Idealize.ShloMosaic.MidUnit

open Idealize.ShloMosaic Idealize.ShloMosaic.ValueIdx

variable {α : Type}

/-- An array of extents a, 1, b re-laid as a by b reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An array of extents a by b re-laid as a, 1, b reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Idealize.ShloMosaic.MidUnit
-- ==== Proof.SageBody.lean ====
import proofs.«130268_j35914516529155_2_alg».proof.Proof.Gen.KernelIdeal.Frame
import proofs.«130268_j35914516529155_2_alg».proof.Proof.Sage
import proofs.«130268_j35914516529155_2_alg».proof.Proof.LibPlainDot
import proofs.«130268_j35914516529155_2_alg».proof.Proof.LibMidUnit

/-!
# One grid step computes the layer of its 512 rows

The body loads a block of 512 node rows, the 16 neighbour slices of the matching neighbour block one at a time
(slice j is the rectangle at offset (0, j, 0) of extent 512 × 1 × 256, re-laid as 512 × 256), and both weight matrices
whole. It adds the slices left to right, scales by the word of 0.0625, multiplies the node rows by the self weights and
the scaled sum by the aggregate weights (two plain 512 × 256 by 256 × 256 products into zero accumulators; the changes
of float format are the identity on the extended reals), floors both at the word of 0.0 and stores the first in
columns 0 to 255 and the second in columns 256 to 511 of the output block. So the output block is the layer of
Sage.lean of the four input blocks, at 512 rows.
-/

noncomputable section

namespace GraphSage.Body

open Cert.KernelIdeal Cert.KernelIdeal.Gen Idealize.ShloMosaic Idealize.ShloMosaic.ValueIdx Idealize.ShloMosaic.MidUnit

/-- The products' dimension numbers are the plain ones: rows by columns, one contracted axis. -/
theorem dot_plain : dot_S512x256_S256x256_S512x256_1_0_0_1_n_n = DotDims.plain 512 256 256 := rfl

/-- The load of neighbour slice o of a block reads, at (p, 0, k), the block at (p, o, k); that o is below 16 is
    what the rectangle's in-bounds evidence says on the middle axis. -/
theorem ld_slice (x1 : Vec Ideal S512x16x256 .f32) (o : Nat)
    (inb : ∀ a, (![0, o, 0] : Fin 3 → Nat) a + S512x1x256.size a ≤ S512x16x256.size a)
    (p : Fin 512) (u : Fin 1) (k : Fin 256) :
    View.ld (Val := Elt Ideal) x1 (Rect.unit (s := S512x16x256) ![0, o, 0] S512x1x256.size inb) (ix3 p u k)
      = x1 (ix3 p (⟨o, Nat.lt_of_succ_le (inb 1)⟩ : Fin 16) k) := by
  refine congrArg x1 (funext fun a => Fin.ext ?_)
  match a with
  | ⟨0, _⟩ => show 0 + 1 * p.val = p.val; omega
  | ⟨1, _⟩ => show o + 1 * u.val = o; have := u.isLt; omega
  | ⟨2, _⟩ => show 0 + 1 * k.val = k.val; omega

/-- The first nine slices added left to right. -/
theorem first_nine (v1 v3 v6 v9 v12 v15 v18 v21 v24 : Vec Ideal S512x1x256 .f32) (p : Fin 512) (k : Fin 256) :
    k0_pay2 v1 v3 v6 v9 v12 v15 v18 v21 v24 (ix2 p k)
      = v1 (ix3 p 0 k) + v3 (ix3 p 0 k) + v6 (ix3 p 0 k) + v9 (ix3 p 0 k) + v12 (ix3 p 0 k) + v15 (ix3 p 0 k)
        + v18 (ix3 p 0 k) + v21 (ix3 p 0 k) + v24 (ix3 p 0 k) := by
  unfold k0_pay2
  simp only [addf_apply, shapeCast_a1b_ab_apply]

/-- The self half of the output block at (p, q): the node row against column q of the self weights, floored. -/
theorem self_payload (v0 : Vec Ideal S512x256 .f32) (v52 : Vec Ideal S256x256 .bf16) (p : Fin 512) (q : Fin 256) :
    k0_pay4 v0 v52 (ix2 p q)
      = max (∑ k : Fin 256, v0 (ix2 p k) * v52 (ix2 k q)) (Ideal.ofBits .f32 0x00000000#32) := by
  unfold k0_pay4
  refine (maximumf_apply _ _ _).trans (congrArg₂ max ?_ rfl)
  refine (PlainDot.matmul_zero_apply (φ₁ := .bf16) (φ₂ := .bf16) 512 256 256 none _ _ p q).trans ?_
  refine Finset.sum_congr rfl fun k _ => ?_
  rw [shapeCast_self]
  rfl

/-- The neighbour half of the output block at (p, q): the sixteen slices added left to right (the first nine
    already summed in v26), scaled by 0.0625, against column q of the aggregate weights, floored. -/
theorem nei_payload (v26 : FVec Ideal S512x256 .f32) (v27 v30 v33 v36 v39 v42 v45 : Vec Ideal S512x1x256 .f32)
    (v55 : Vec Ideal S256x256 .bf16) (p : Fin 512) (q : Fin 256) :
    k0_pay1 (k0_pay3 v26 v27 v30 v33 v36 v39 v42 v45 v55) (ix2 p q)
      = max (∑ k : Fin 256,
          ((v26 (ix2 p k) + v27 (ix3 p 0 k) + v30 (ix3 p 0 k) + v33 (ix3 p 0 k) + v36 (ix3 p 0 k) + v39 (ix3 p 0 k)
            + v42 (ix3 p 0 k) + v45 (ix3 p 0 k)) * Ideal.ofBits .f32 0x3D800000#32) * v55 (ix2 k q))
        (Ideal.ofBits .f32 0x00000000#32) := by
  unfold k0_pay1 k0_pay3
  refine (maximumf_apply _ _ _).trans (congrArg₂ max ?_ rfl)
  refine (PlainDot.matmul_zero_apply (φ₁ := .bf16) (φ₂ := .bf16) 512 256 256 none _ _ p q).trans ?_
  refine Finset.sum_congr rfl fun k _ => ?_
  rw [shapeCast_self]
  refine congrArg (fun v => v * v55 (ix2 k q)) ?_
  simp only [truncf_apply, mulf_apply, addf_apply, broadcast_apply, shapeCast_a1b_ab_apply, Ideal.ofBits_def]

/-- The zero offsets of a rank-two rectangle, however they are spelt. -/
theorem zero_offsets : (![0, 0] : Fin 2 → Nat) = fun _ => 0 := funext fun a => by fin_cases a <;> rfl

/-- The stored neighbour half over the body's own loads: the block's neighbour mean against the aggregate weights. -/
theorem nei_piece (x1 : Vec Ideal S512x16x256 .f32) (x3 : Vec Ideal S256x256 .bf16) (p : Fin 512) (q : Fin 256) :
    k0_pay1 (k0_pay3 (k0_pay2 (View.ld x1 r0_1) (View.ld x1 r0_2) (View.ld x1 r0_3) (View.ld x1 r0_4) (View.ld x1 r0_5)
        (View.ld x1 r0_6) (View.ld x1 r0_7) (View.ld x1 r0_8) (View.ld x1 r0_9)) (View.ld x1 r0_10) (View.ld x1 r0_11)
        (View.ld x1 r0_12) (View.ld x1 r0_13) (View.ld x1 r0_14) (View.ld x1 r0_15) (View.ld x1 r0_16)
        (View.ld x3 r0_17)) (ix2 p q)
      = max (∑ k : Fin 256, neiMean (M := 512) x1 p k * x3 (ix2 k q)) (Ideal.ofBits .f32 0x00000000#32) := by
  rw [nei_payload]
  refine congrArg (fun v => max v _) (Finset.sum_congr rfl fun k _ => ?_)
  rw [first_nine, View.ld_unit_zero (S := S256x256) zero_offsets]
  have h0 : View.ld x1 r0_1 (ix3 p 0 k) = x1 (ix3 p 0 k) := ld_slice x1 0 _ p 0 k
  have h1 : View.ld x1 r0_2 (ix3 p 0 k) = x1 (ix3 p 1 k) := ld_slice x1 1 _ p 0 k
  have h2 : View.ld x1 r0_3 (ix3 p 0 k) = x1 (ix3 p 2 k) := ld_slice x1 2 _ p 0 k
  have h3 : View.ld x1 r0_4 (ix3 p 0 k) = x1 (ix3 p 3 k) := ld_slice x1 3 _ p 0 k
  have h4 : View.ld x1 r0_5 (ix3 p 0 k) = x1 (ix3 p 4 k) := ld_slice x1 4 _ p 0 k
  have h5 : View.ld x1 r0_6 (ix3 p 0 k) = x1 (ix3 p 5 k) := ld_slice x1 5 _ p 0 k
  have h6 : View.ld x1 r0_7 (ix3 p 0 k) = x1 (ix3 p 6 k) := ld_slice x1 6 _ p 0 k
  have h7 : View.ld x1 r0_8 (ix3 p 0 k) = x1 (ix3 p 7 k) := ld_slice x1 7 _ p 0 k
  have h8 : View.ld x1 r0_9 (ix3 p 0 k) = x1 (ix3 p 8 k) := ld_slice x1 8 _ p 0 k
  have h9 : View.ld x1 r0_10 (ix3 p 0 k) = x1 (ix3 p 9 k) := ld_slice x1 9 _ p 0 k
  have h10 : View.ld x1 r0_11 (ix3 p 0 k) = x1 (ix3 p 10 k) := ld_slice x1 10 _ p 0 k
  have h11 : View.ld x1 r0_12 (ix3 p 0 k) = x1 (ix3 p 11 k) := ld_slice x1 11 _ p 0 k
  have h12 : View.ld x1 r0_13 (ix3 p 0 k) = x1 (ix3 p 12 k) := ld_slice x1 12 _ p 0 k
  have h13 : View.ld x1 r0_14 (ix3 p 0 k) = x1 (ix3 p 13 k) := ld_slice x1 13 _ p 0 k
  have h14 : View.ld x1 r0_15 (ix3 p 0 k) = x1 (ix3 p 14 k) := ld_slice x1 14 _ p 0 k
  have h15 : View.ld x1 r0_16 (ix3 p 0 k) = x1 (ix3 p 15 k) := ld_slice x1 15 _ p 0 k
  rw [h0, h1, h2, h3, h4, h5, h6, h7, h8, h9, h10, h11, h12, h13, h14, h15]
  unfold neiMean
  rw [sum_sixteen]

/-- The stored self half over the body's own loads. -/
theorem self_piece (x0 : Vec Ideal S512x256 .f32) (x2 : Vec Ideal S256x256 .bf16) (p : Fin 512) (q : Fin 256) :
    k0_pay4 (View.ld x0 r0_0) (View.ld x2 r0_17) (ix2 p q)
      = max (∑ k : Fin 256, x0 (ix2 p k) * x2 (ix2 k q)) (Ideal.ofBits .f32 0x00000000#32) := by
  rw [View.ld_unit_zero (S := S512x256) zero_offsets, View.ld_unit_zero (S := S256x256) zero_offsets]
  exact self_payload x0 x2 p q

/-- What one grid step leaves in the output block: the layer of its four input blocks. The two stores tile the
    block (columns 256 to 511, then columns 0 to 255) and each stores the layer's values on its columns. -/
theorem out_block (x0 : Vec Ideal S512x256 .f32) (x1 : Vec Ideal S512x16x256 .f32) (x2 x3 : Vec Ideal S256x256 .bf16) :
    out0_4 (F := Ideal) x0 x1 x2 x3 = layerArr (M := 512) x0 x1 x2 x3 := by
  funext y
  unfold out0_4
  refine View.canon_apply_of_pieces (Val := Elt Ideal) (layerArr (M := 512) x0 x1 x2 x3) _ ?_ y (cover0_4 _ _ y)
  intro pc hpc
  rcases List.mem_cons.mp hpc with rfl | hpc
  · intro x
    obtain ⟨p, q, rfl⟩ : ∃ (p : Fin 512) (q : Fin 256), x = ix2 p q := ⟨x 0, x 1, eq_ix2 x⟩
    have hq : q.val < 256 := q.isLt
    have he : r0_19.emb (ix2 p q) = ix2 p (⟨256 + q.val, by omega⟩ : Fin 512) := funext fun a => Fin.ext (by
      match a with
      | ⟨0, _⟩ => show 0 + 1 * p.val = p.val; omega
      | ⟨1, _⟩ => show 256 + 1 * q.val = 256 + q.val; omega)
    rw [he, layerArr_apply]
    refine (nei_piece x1 x3 p q).trans ?_
    unfold layer
    rw [dif_neg (show ¬ (256 + q.val < 256) by omega)]
    refine congrArg (fun v => max v _) (Finset.sum_congr rfl fun k _ => ?_)
    refine congrArg (fun i : Fin 256 => neiMean (M := 512) x1 p k * x3 (ix2 k i)) (Fin.ext ?_)
    show q.val = 256 + q.val - 256
    omega
  · rcases List.mem_singleton.mp hpc with rfl
    intro x
    obtain ⟨p, q, rfl⟩ : ∃ (p : Fin 512) (q : Fin 256), x = ix2 p q := ⟨x 0, x 1, eq_ix2 x⟩
    have hq : q.val < 256 := q.isLt
    have he : r0_18.emb (ix2 p q) = ix2 p (⟨q.val, by omega⟩ : Fin 512) := funext fun a => Fin.ext (by
      match a with
      | ⟨0, _⟩ => show 0 + 1 * p.val = p.val; omega
      | ⟨1, _⟩ => show 0 + 1 * q.val = q.val; omega)
    rw [he, layerArr_apply]
    refine (self_piece x0 x2 p q).trans ?_
    unfold layer
    rw [dif_pos (show q.val < 256 from hq)]

end GraphSage.Body

end
-- ==== Proof.SageWhole.lean ====
import proofs.«130268_j35914516529155_2_alg».proof.Proof.Gen.KernelIdeal.Value
import proofs.«130268_j35914516529155_2_alg».proof.Proof.SageBody

/-!
# From the 128 output blocks to the output array

Grid step t reads rows 512 t to 512 t + 511 of the node features and of the neighbour features, both weight matrices
whole, and writes rows 512 t to 512 t + 511 of the output, all 512 columns. The weights the steps read are the host's
copies of the two weight arguments in a narrower float format, which on the extended reals are the arguments
themselves. Since a row of the layer depends on the same row of the inputs only, what step t writes back is block t of
the layer of the whole arguments; the 128 blocks tile the 65536 rows (row r lies in block r / 512), so after the run
the output array is the layer of the arguments.
-/

noncomputable section

namespace GraphSage.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer of the four argument arrays as launched on core c. -/
abbrev result (c : Dev nD) : S65536x512.Idx → EReal :=
  layerArr (M := 65536) (m ((c : Thread nD τ).loc main_arg0)) (m ((c : Thread nD τ).loc main_arg1))
    (m ((c : Thread nD τ).loc main_arg2)) (m ((c : Thread nD τ).loc main_arg3))

/-- The printed index maps, decided over the 128 points: the row windows sit at block t, everything else at block 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The self weights the region finds are the self-weight argument: the host's change of format is the identity. -/
theorem self_weights (c : Dev nD) :
    (V m c main_v0 : S256x256.Idx → EReal) = m ((c : Thread nD τ).loc main_arg2) := by
  dsimp only [Gen.V, Gen.hostOps0]
  after_results
  rfl

/-- The aggregate weights the region finds are the aggregate-weight argument. -/
theorem aggr_weights (c : Dev nD) :
    (V m c main_v1 : S256x256.Idx → EReal) = m ((c : Thread nD τ).loc main_arg3) := by
  dsimp only [Gen.V, Gen.hostOps0]
  after_results
  rfl

/-- What step t writes back is block t of the layer of the arguments: rows 512 t + r of the inputs are rows r of
    the step's input blocks, and the weights are read whole. -/
theorem flushed_eq (c : Dev nD) (t : Fin cfg0.N) :
    (dats m 0 c).flushed 4 t = ((cfg0.win 4).blk t).view.read (Elt Ideal) (result m c) := by
  rw [Value.flushed4, GraphSage.Body.out_block (iblk m c 0 t) (iblk m c 1 t) (iblk m c 2 t) (iblk m c 3 t)]
  obtain ⟨e00, e01, e10, e11, e12, e20, e21, e30, e31, e40, e41⟩ := idx_facts t
  have ht : t.val < 128 := lt_of_lt_of_eq t.isLt N_0
  funext j
  obtain ⟨r, q, rfl⟩ : ∃ (r : Fin 512) (q : Fin 512), j = ix2 r q := ⟨j 0, j 1, eq_ix2 j⟩
  have hr : r.val < 512 := r.isLt
  have hemb : ((cfg0.win 4).blk t).view.emb (ix2 r q) = ix2 (⟨t.val * 512 + r.val, by omega⟩ : Fin 65536) q :=
    funext fun a => Fin.ext (by
      match a with
      | ⟨0, _⟩ => show win0_4.index t (0 : Fin 2) * 512 + 1 * r.val = t.val * 512 + r.val; omega
      | ⟨1, _⟩ => show win0_4.index t (1 : Fin 2) * 512 + 1 * q.val = q.val; omega)
  show layerArr (M := 512) (iblk m c 0 t) (iblk m c 1 t) (iblk m c 2 t) (iblk m c 3 t) (ix2 r q)
      = result m c (((cfg0.win 4).blk t).view.emb (ix2 r q))
  rw [hemb, layerArr_apply]
  show _ = layerArr (M := 65536) _ _ _ _ (ix2 (⟨t.val * 512 + r.val, by omega⟩ : Fin 65536) q)
  rw [layerArr_apply]
  refine layer_congr (M := 512) (M' := 65536) (iblk m c 0 t) (iblk m c 1 t)
    (m ((c : Thread nD τ).loc main_arg0)) (m ((c : Thread nD τ).loc main_arg1)) (iblk m c 2 t) (iblk m c 3 t)
    (m ((c : Thread nD τ).loc main_arg2)) (m ((c : Thread nD τ).loc main_arg3)) r ⟨t.val * 512 + r.val, by omega⟩ q q
    ?_ ?_ ?_ ?_ rfl
  · intro k
    show V m c main_arg0 (((cfg0.win 0).blk t).view.emb (ix2 r k)) = _
    rw [V_main_arg0]
    refine congrArg _ (funext fun a => Fin.ext ?_)
    match a with
    | ⟨0, _⟩ => show win0_0.index t (0 : Fin 2) * 512 + 1 * r.val = t.val * 512 + r.val; omega
    | ⟨1, _⟩ => show win0_0.index t (1 : Fin 2) * 256 + 1 * k.val = k.val; omega
  · intro jn k
    show V m c main_arg1 (((cfg0.win 1).blk t).view.emb (ix3 r jn k)) = _
    rw [V_main_arg1]
    refine congrArg _ (funext fun a => Fin.ext ?_)
    match a with
    | ⟨0, _⟩ => show win0_1.index t (0 : Fin 3) * 512 + 1 * r.val = t.val * 512 + r.val; omega
    | ⟨1, _⟩ => show win0_1.index t (1 : Fin 3) * 16 + 1 * jn.val = jn.val; omega
    | ⟨2, _⟩ => show win0_1.index t (2 : Fin 3) * 256 + 1 * k.val = k.val; omega
  · funext y
    obtain ⟨a, b, rfl⟩ : ∃ (a b : Fin 256), y = ix2 a b := ⟨y 0, y 1, eq_ix2 y⟩
    have hy : ((cfg0.win 2).blk t).view.emb (ix2 a b) = ix2 a b := funext fun d => Fin.ext (by
      match d with
      | ⟨0, _⟩ => show win0_2.index t (0 : Fin 2) * 256 + 1 * a.val = a.val; omega
      | ⟨1, _⟩ => show win0_2.index t (1 : Fin 2) * 256 + 1 * b.val = b.val; omega)
    show V m c main_v0 (((cfg0.win 2).blk t).view.emb (ix2 a b)) = _
    rw [hy]
    exact congrFun (self_weights m c) (ix2 a b)
  · funext y
    obtain ⟨a, b, rfl⟩ : ∃ (a b : Fin 256), y = ix2 a b := ⟨y 0, y 1, eq_ix2 y⟩
    have hy : ((cfg0.win 3).blk t).view.emb (ix2 a b) = ix2 a b := funext fun d => Fin.ext (by
      match d with
      | ⟨0, _⟩ => show win0_3.index t (0 : Fin 2) * 256 + 1 * a.val = a.val; omega
      | ⟨1, _⟩ => show win0_3.index t (1 : Fin 2) * 256 + 1 * b.val = b.val; omega)
    show V m c main_v1 (((cfg0.win 3).blk t).view.emb (ix2 a b)) = _
    rw [hy]
    exact congrFun (aggr_weights m c) (ix2 a b)

/-- An index of the output array is in step t's block iff each coordinate is in the block's range on its axis. -/
theorem mem_blk (t : Fin cfg0.N) (i : S65536x512.Idx) :
    i ∈ ((cfg0.win 4).blk t).view.set ↔ ∀ a : Fin 2, win0_4.index t a * S512x512.size a ≤ (i a).val
      ∧ (i a).val < win0_4.index t a * S512x512.size a + S512x512.size a := by
  show i ∈ ((View.whole main_v2).slice (win0_4.rect t)).set ↔ _
  rw [View.set_slice_whole, Rect.mem_set_unit]
  exact Iff.rfl

/-- Every row of the output lies in some step's block: row r in block r / 512. -/
theorem covered (i : S65536x512.Idx) :
    ∃ t : Fin cfg0.N, (cfg0.win 4).flush t = true ∧ i ∈ ((cfg0.win 4).blk t).view.set := by
  have hi0 : (i 0).val < 65536 := (i 0).isLt
  have hi1 : (i 1).val < 512 := (i 1).isLt
  have hN : cfg0.N = 128 := N_0
  have hlt : (i 0).val / 512 < cfg0.N := by rw [hN]; omega
  refine ⟨⟨(i 0).val / 512, hlt⟩, flush0_4 _, ?_⟩
  rw [mem_blk]
  obtain ⟨e00, e01, e10, e11, e12, e20, e21, e30, e31, e40, e41⟩ := idx_facts ⟨(i 0).val / 512, hlt⟩
  have e40' : win0_4.index ⟨(i 0).val / 512, hlt⟩ (0 : Fin 2) = (i 0).val / 512 := e40
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    omega
  | ⟨1, _⟩ =>
    show win0_4.index ⟨(i 0).val / 512, hlt⟩ (1 : Fin 2) * 512 ≤ (i 1).val
      ∧ (i 1).val < win0_4.index ⟨(i 0).val / 512, hlt⟩ (1 : Fin 2) * 512 + 512
    omega

/-- After the run the output array is the layer of the arguments. -/
theorem final (c : Dev nD) : (dats m 0 c).arrAt 4 cfg0.N = result m c :=
  (dats m 0 c).arrAt_eq_of_cover 4 (result m c) (fun t _ => flushed_eq m c t) covered

/-- The kernel's run: every weakly fair execution ends with the result array at the layer of the arguments, the
    arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end GraphSage.Whole

end
-- ==== Proof.lean ====
/-
  A GraphSAGE layer: one pipelined kernel against its plain reference, equal on the extended reals.

  Inputs: node features x (65536 × 256), the features n of 16 sampled neighbours per node (65536 × 16 × 256), self
  weights W and aggregate weights A (256 × 256 each). Both programs return the 65536 × 512 array whose row p holds
      max (∑ k, x (p, k) · W (k, c)) 0                                   in columns c < 256, and
      max (∑ k, ((∑ j, n (p, j, k)) · 2⁻⁴) · A (k, c - 256)) 0            in columns c ≥ 256
  (Sage.lean).

  The reference adds the 16 neighbour rows in one reduction, divides by 16, forms the two products, joins them side by
  side and floors at 0 (SageRef.lean). The kernel works on 128 blocks of 512 rows: per block it adds the 16 neighbour
  slices left to right, multiplies by 0.0625, forms the two products in a narrower float format into zero accumulators,
  floors each and stores them in the left and the right half of the block's columns (SageBody.lean); the blocks tile
  the rows, and a row of the layer depends on the same row of x and n only, so the array after the run is the layer of
  the arguments (SageWhole.lean).

  What joins the two: on the extended reals a change of float format is the identity, addition is associative and
  commutative so the order of the 16 terms does not matter, and dividing by 16 is multiplying by 1/16 for every
  extended real, 16 being a nonzero real and 0.0625 being 1/16 exactly. None of this needs the inputs finite, so the
  precondition is never opened. The idealization rewrote nothing, so that conjunct is trivial.
-/
import proofs.«130268_j35914516529155_2_alg».proof.Defs
import proofs.«130268_j35914516529155_2_alg».proof.Proof.Gen.Kernel
import proofs.«130268_j35914516529155_2_alg».proof.Proof.Gen.Kernel.Skeleton
import proofs.«130268_j35914516529155_2_alg».proof.Proof.Gen.Kernel.Launch
import proofs.«130268_j35914516529155_2_alg».proof.Proof.Gen.Kernel.Points
import proofs.«130268_j35914516529155_2_alg».proof.Proof.Gen.Kernel.Frame
import proofs.«130268_j35914516529155_2_alg».proof.Proof.Gen.KernelIdeal
import proofs.«130268_j35914516529155_2_alg».proof.Proof.Gen.KernelIdeal.Skeleton
import proofs.«130268_j35914516529155_2_alg».proof.Proof.Gen.KernelIdeal.Launch
import proofs.«130268_j35914516529155_2_alg».proof.Proof.Gen.KernelIdeal.Points
import proofs.«130268_j35914516529155_2_alg».proof.Proof.Gen.KernelIdeal.Frame
import proofs.«130268_j35914516529155_2_alg».proof.Proof.Gen.ReferenceIdeal
import proofs.«130268_j35914516529155_2_alg».proof.Proof.Gen.Pre_finite_inputs
import proofs.«130268_j35914516529155_2_alg».proof.Proof.Gen.KernelIdeal.Value
import proofs.«130268_j35914516529155_2_alg».proof.Proof.Gen.ReferenceIdeal.Run
import proofs.«130268_j35914516529155_2_alg».proof.Proof.Gen.ReferenceIdeal.Read
import proofs.«130268_j35914516529155_2_alg».proof.Proof.SageRef
import proofs.«130268_j35914516529155_2_alg».proof.Proof.SageWhole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments the kernel and the reference both end with the layer of those
    arguments in their result array: the kernel block by block, the reference stage by stage. -/
theorem algebraic : Cert.algebraic_KernelIdeal_ReferenceIdeal := by
  intro m ρ m' ρ' _ hagree
  refine ⟨fun c => GraphSage.Whole.result m c, GraphSage.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, GraphSage.Ref.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
